-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1 : Shape := ⟨1, ![1]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1 : S_.BroadcastsInDim S1 (![] : Fin 0 → Fin S1.rank)
  reducesTo_S1_S_d0 : S1.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg7 : FVec F S1 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S2048 .f32 := Host.absf main_arg8
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4096x2048 .f32) (main_arg1 : FVec F S2048x2048 .f32) (main_arg2 : FVec F S2048x2048 .f32) (main_arg3 : FVec F S2048x2048 .f32) (main_arg4 : IVec S2048x2048 32) (main_arg5 : IVec S2048x2048 32) (main_arg6 : IVec S2048x2048 32) (main_arg7 : FVec F S1 .f32) (main_arg8 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg7 main_arg8 main_v13 main_v16
-- ==== Kernel.lean ====
abbrev S4096x2048 : Shape := ⟨2, ![4096, 2048]⟩
abbrev S2048x2048 : Shape := ⟨2, ![2048, 2048]⟩
abbrev S1 : Shape := ⟨1, ![1]⟩
abbrev S2048 : Shape := ⟨1, ![2048]⟩
abbrev S1x1 : Shape := ⟨2, ![1, 1]⟩
abbrev S1x2048 : Shape := ⟨2, ![1, 2048]⟩
abbrev S256x2048 : Shape := ⟨2, ![256, 2048]⟩
abbrev S2048x1024 : Shape := ⟨2, ![2048, 1024]⟩
abbrev S256x1024 : Shape := ⟨2, ![256, 1024]⟩
abbrev S1x1024 : Shape := ⟨2, ![1, 1024]⟩

abbrev nBuf : Space → Nat
  | .hbm => 14
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S1, .f32⟩
  | .hbm, ⟨8, _⟩ => ⟨S2048, .f32⟩
  | .hbm, ⟨9, _⟩ => ⟨S1x1, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S2048x1024, .i32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S2048x1024, .f32⟩
  | .local _ .vmem, ⟨9, _⟩ => ⟨S2048x1024, .i32⟩
  | .local _ .vmem, ⟨10, _⟩ => ⟨S256x1024, .f32⟩
  | .local _ .vmem, ⟨11, _⟩ => ⟨S256x1024, .f32⟩
  | .local _ .vmem, ⟨12, _⟩ => ⟨S256x2048, .f32⟩
  | .local _ .vmem, ⟨13, _⟩ => ⟨S256x2048, .f32⟩
  | .local _ .vmem, ⟨14, _⟩ => ⟨S2048x1024, .f32⟩
  | .local _ .vmem, ⟨15, _⟩ => ⟨S2048x1024, .i32⟩
  | .local _ .vmem, ⟨16, _⟩ => ⟨S1x1, .f32⟩
  | .local _ .vmem, ⟨17, _⟩ => ⟨S1x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S2048x1024 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S2048x1024 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S1_S1x1 : S1.ShapeCasts S1x1
  shapeCasts_S2048_S1x2048 : S2048.ShapeCasts S1x2048
  inb_S2048x1024_S2048x1024_0_0 : ∀ a, (![0, 0] : Fin 2 → Nat) a + S2048x1024.size a ≤ S2048x1024.size a
  h_S2048x1024 : 0 < S2048x1024.numel
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x2048_S256x2048 : S256x2048.ShapeCasts S256x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1024 : S1x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x2048.size a
  hwx0_1 : ∀ i : grid0.Coords, EltTy.bits .f32 = 32 ∨ (Rect.block (s := S2048x2048) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x2048.size a
  hwx0_2 : ∀ i : grid0.Coords, EltTy.bits .i32 = 32 ∨ (Rect.block (s := S2048x2048) S2048x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x2048.size a
  hwx0_3 : ∀ i : grid0.Coords, EltTy.bits .f32 = 32 ∨ (Rect.block (s := S4096x2048) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .f32 = 32 ∨ (Rect.block (s := S4096x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .f32 = 32 ∨ (Rect.block (s := S2048x2048) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x2048.size a
  hwx1_2 : ∀ i : grid1.Coords, EltTy.bits .i32 = 32 ∨ (Rect.block (s := S2048x2048) S2048x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x2048.size a
  hwx1_3 : ∀ i : grid1.Coords, EltTy.bits .f32 = 32 ∨ (Rect.block (s := S4096x2048) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .f32 = 32 ∨ (Rect.block (s := S4096x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S2048x2048.size a
  hwx2_1 : ∀ i : grid2.Coords, EltTy.bits .f32 = 32 ∨ (Rect.block (s := S2048x2048) S2048x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S2048x2048.size a
  hwx2_2 : ∀ i : grid2.Coords, EltTy.bits .i32 = 32 ∨ (Rect.block (s := S2048x2048) S2048x1024.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x2048.size a
  hwx2_4 : ∀ i : grid2.Coords, EltTy.bits .f32 = 32 ∨ (Rect.block (s := S1x2048) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S4096x2048.size a
  hwx2_5 : ∀ i : grid2.Coords, EltTy.bits .f32 = 32 ∨ (Rect.block (s := S4096x2048) S256x1024.size (cc2_transform_5 i) (hinb2_5 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S2048x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S2048x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4) S256x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S1 : Shape := ⟨1, ![1]⟩
abbrev S2048 : Shape := ⟨1, ![2048]⟩
abbrev S1x1 : Shape := ⟨2, ![1, 1]⟩
abbrev S1x2048 : Shape := ⟨2, ![1, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S1, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S4096x2048, .f32⟩
  | .hbm, ⟨12, _⟩ => ⟨S2048x2048, .f32⟩
  | .hbm, ⟨13, _⟩ => ⟨S2048x2048, .f32⟩
  | .hbm, ⟨14, _⟩ => ⟨S4096x2048, .f32⟩
  | .hbm, ⟨15, _⟩ => ⟨S2048x2048, .f32⟩
  | .hbm, ⟨16, _⟩ => ⟨S2048x2048, .f32⟩
  | .hbm, ⟨17, _⟩ => ⟨S4096x2048, .f32⟩
  | .hbm, ⟨18, _⟩ => ⟨S1x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Run.lean ====
/-
  The idealized kernel's run with its result named. Every weakly fair execution of the three kernels one after
  the other terminates without a fault; the final memory holds, at the result buffer, what the third kernel's
  write-backs leave there (the last of the buffer contents folded through the three kernels, `W4`), and every
  argument as launched. This is the run behind the frame claim, read once more at the result buffer as well as
  at the arguments: the last thread state holds every unscoped buffer at `W4`, the result's among them.
-/
import proofs.«143237_j44470091383360_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last thread state beside the arguments. -/
theorem run_named : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.Spec.lean ====
/-
  The mathematics of the chain, on the extended reals, with no program in sight.

  One STAGE is a masked matrix product: entry (r, c) of `stage a w mk` is the sum over k of
  a[r, k] · (w[k, c] · mk[k, c]), the mask an integer read exactly. The result of the whole chain is three
  stages one after the other, then the TAIL: every entry times one scale, plus the bias of its column,
  clamped below at zero. A sum of products over one axis is written once, as `dotRow`, so that the two
  programs' products (over a 256-row block of the left factor and a 1024-column block of the right one, or
  over the whole arrays) are the same expression of what they read.
-/
import Idealize.ShloMosaic.PureOps.Ideal.Laws
import Idealize.ShloMosaic.Lib.ValueIdx

noncomputable section

namespace Cert.MaskedChain

open Idealize.ShloMosaic Idealize.ShloMosaic.ValueIdx

/-- The activations' shape, [4096, 2048]. -/
abbrev SX : Shape := ⟨2, ![4096, 2048]⟩
/-- A weight's or a mask's shape, [2048, 2048]. -/
abbrev SK : Shape := ⟨2, ![2048, 2048]⟩
/-- The scale's shape, [1]. -/
abbrev SS : Shape := ⟨1, ![1]⟩
/-- The bias's shape, [2048]. -/
abbrev SB : Shape := ⟨1, ![2048]⟩

/-- The sum over the 2048 contraction coordinates of a left entry times a masked weight entry. -/
def dotRow (l : Fin 2048 → EReal) (w : Fin 2048 → EReal) (mk : Fin 2048 → BitVec 32) : EReal :=
  ∑ k : Fin 2048, l k * (w k * FloatOps.sitofp (F := Ideal) .f32 (mk k))

/-- One stage: the activations times the masked weights. -/
def stage (a : SX.Idx → EReal) (w : SK.Idx → EReal) (mk : SK.Idx → BitVec 32) : SX.Idx → EReal :=
  fun i => dotRow (fun k => a (ix2 (i 0) k)) (fun k => w (ix2 k (i 1))) (fun k => mk (ix2 k (i 1)))

/-- The tail: scale, add the column's bias, clamp at zero. -/
def tail (p : SX.Idx → EReal) (sc : SS.Idx → EReal) (bs : SB.Idx → EReal) : SX.Idx → EReal :=
  fun i => max (p i * sc (ix1 0) + bs (ix1 (i 1))) 0

/-- The whole chain. -/
def chain (x : SX.Idx → EReal) (w0 w1 w2 : SK.Idx → EReal) (m0 m1 m2 : SK.Idx → BitVec 32)
    (sc : SS.Idx → EReal) (bs : SB.Idx → EReal) : SX.Idx → EReal :=
  tail (stage (stage (stage x w0 m0) w1 m1) w2 m2) sc bs

/-- A sum of products whose factors agree coordinate by coordinate is the same sum. -/
theorem dotRow_congr {l l' : Fin 2048 → EReal} {w w' : Fin 2048 → EReal} {mk mk' : Fin 2048 → BitVec 32}
    (hl : ∀ k, l k = l' k) (hw : ∀ k, w k = w' k) (hm : ∀ k, mk k = mk' k) : dotRow l w mk = dotRow l' w' mk' := by
  unfold dotRow
  exact Finset.sum_congr rfl fun k _ => by rw [hl k, hw k, hm k]

end Cert.MaskedChain

end
-- ==== Proof.LibMatmulIdx.lean ====
/-
  A matrix product accumulated into zeros, read at one output index, as a plain sum over ONE contraction coordinate
  `k : Fin n` of a left entry times a right entry — for any dimension numbers that contract a single axis of extent
  `n`, once the two operand indices at the output index and at `k` have been named (`li k`, `ri k`). On the extended
  reals the products' sum has no rounding and no chunk order left in it, so this is all a product says.
-/
import Idealize.ShloMosaic.PureOps.Ideal.Laws
import Idealize.ShloMosaic.Lib.ValueIdx

noncomputable section

namespace Idealize.ShloMosaic.ValueIdx

open Idealize.ShloMosaic

/-- The matrix unit's product into a zero accumulator, at output index `j`: the sum over the contraction coordinate
    of the left operand at `li k` times the right operand at `ri k`. -/
theorem matmul_zero_apply_of_idx {sl sr so : Shape} {φ₁ φ₂ : FTy} (D : DotDims sl sr so) (n : ℕ) (hr : D.contr.rank = 1)
    (hs : D.contr.size ⟨0, by omega⟩ = n) (prec : Option ContractPrecision) (lhs : FVec Ideal sl φ₁)
    (rhs : FVec Ideal sr φ₂) (j : so.Idx) (li : Fin n → sl.Idx) (ri : Fin n → sr.Idx)
    (hl : ∀ k : Fin n, D.lhsIdx j ((contrEquiv1 D n hr hs).symm k) = li k)
    (hri : ∀ k : Fin n, D.rhsIdx j ((contrEquiv1 D n hr hs).symm k) = ri k) :
    FloatOps.matmul D prec lhs rhs (constant so .f32 0x00000000#32) j = ∑ k : Fin n, lhs (li k) * rhs (ri k) := by
  rw [Ideal.matmul_constant_zero_apply, ← Equiv.sum_comp (contrEquiv1 D n hr hs).symm]
  exact Finset.sum_congr rfl fun k _ => by rw [hl k, hri k]

end Idealize.ShloMosaic.ValueIdx

end
-- ==== Proof.Payload.lean ====
/-
  What one grid point of each of the three kernels computes, read at an entry (p, q) of its 256 × 1024 output
  block: the matrix unit's product into zeros is the sum over the 2048 contraction coordinates of the left block's
  row p times the masked right block's column q (the change of format before the product is the identity on
  the extended reals); the third kernel then multiplies by the one scale it loaded, adds the bias entry of
  column q and clamps at zero.
-/
import proofs.«143237_j44470091383360_1_alg».proof.Proof.Gen.KernelIdeal.Skeleton
import proofs.«143237_j44470091383360_1_alg».proof.Proof.Spec
import proofs.«143237_j44470091383360_1_alg».proof.Proof.LibMatmulIdx
import Idealize.ShloMosaic.Lib.Pipeline.Value

noncomputable section

namespace Cert.MaskedChain.Body

open Idealize.ShloMosaic Idealize.ShloMosaic.ValueIdx
open Cert.KernelIdeal Cert.KernelIdeal.Facts₀ Cert.MaskedChain

/-! ## The operand indices of the block product -/

theorem lhs_row (j : S256x1024.Idx) (c : dot_S256x2048_S2048x1024_S256x1024_1_0_0_1_n_n.contr.Idx) :
    (dot_S256x2048_S2048x1024_S256x1024_1_0_0_1_n_n.lhsIdx j c 0).val = (j 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl

theorem rhs_col (j : S256x1024.Idx) (c : dot_S256x2048_S2048x1024_S256x1024_1_0_0_1_n_n.contr.Idx) :
    (dot_S256x2048_S2048x1024_S256x1024_1_0_0_1_n_n.rhsIdx j c 1).val = (j 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- At output entry (p, q) and contraction coordinate k the left operand is read at (p, k). -/
theorem lhs_at (p : Fin 256) (q : Fin 1024) (k : Fin 2048) :
    dot_S256x2048_S2048x1024_S256x1024_1_0_0_1_n_n.lhsIdx (ix2 p q) ((contrEquiv1 dot_S256x2048_S2048x1024_S256x1024_1_0_0_1_n_n 2048 rfl rfl).symm k) = ix2 p k :=
  funext fun a => Fin.ext (by
    match a with
    | ⟨0, _⟩ => exact lhs_row _ _
    | ⟨1, _⟩ => exact (dot_S256x2048_S2048x1024_S256x1024_1_0_0_1_n_n.lhsIdx_val_of_single rfl _ _).trans (contrEquiv1_symm_val dot_S256x2048_S2048x1024_S256x1024_1_0_0_1_n_n 2048 rfl rfl k))

/-- … and the right operand at (k, q). -/
theorem rhs_at (p : Fin 256) (q : Fin 1024) (k : Fin 2048) :
    dot_S256x2048_S2048x1024_S256x1024_1_0_0_1_n_n.rhsIdx (ix2 p q) ((contrEquiv1 dot_S256x2048_S2048x1024_S256x1024_1_0_0_1_n_n 2048 rfl rfl).symm k) = ix2 k q :=
  funext fun a => Fin.ext (by
    match a with
    | ⟨0, _⟩ => exact (dot_S256x2048_S2048x1024_S256x1024_1_0_0_1_n_n.rhsIdx_val_of_single rfl _ _).trans (contrEquiv1_symm_val dot_S256x2048_S2048x1024_S256x1024_1_0_0_1_n_n 2048 rfl rfl k)
    | ⟨1, _⟩ => exact rhs_col _ _)

/-- The block product into zeros at (p, q): row p of the left block against column q of the right one. -/
theorem product_at {φ₁ φ₂ : FTy} (l : FVec Ideal S256x2048 φ₁) (r : FVec Ideal S2048x1024 φ₂) (p : Fin 256) (q : Fin 1024) :
    FloatOps.matmul dot_S256x2048_S2048x1024_S256x1024_1_0_0_1_n_n none l r (constant S256x1024 .f32 0x00000000#32) (ix2 p q)
      = ∑ k : Fin 2048, l (ix2 p k) * r (ix2 k q) :=
  matmul_zero_apply_of_idx dot_S256x2048_S2048x1024_S256x1024_1_0_0_1_n_n 2048 rfl rfl none l r (ix2 p q) (fun k => ix2 p k) (fun k => ix2 k q)
    (lhs_at p q) (rhs_at p q)

/-! ## The three payloads -/

/-- The first kernel's stored value at (p, q). -/
theorem pay0_at (x1 : Vec Ideal S2048x1024 .f32) (x2 : Vec Ideal S2048x1024 .i32) (x0 : Vec Ideal S256x2048 .f32)
    (p : Fin 256) (q : Fin 1024) :
    Gen.k0_pay1 (F := Ideal) x1 x2 x0 (ix2 p q)
      = dotRow (fun k => x0 (ix2 p k)) (fun k => x1 (ix2 k q)) (fun k => x2 (ix2 k q)) := by
  unfold Gen.k0_pay1 dotRow
  exact product_at _ _ p q

/-- The second kernel's: the same (its one extra operation recasts the left block to its own shape). -/
theorem pay1_at (x1 : Vec Ideal S2048x1024 .f32) (x2 : Vec Ideal S2048x1024 .i32) (x0 : Vec Ideal S256x2048 .f32)
    (p : Fin 256) (q : Fin 1024) :
    Gen.k1_pay1 (F := Ideal) x1 x2 x0 (ix2 p q)
      = dotRow (fun k => x0 (ix2 p k)) (fun k => x1 (ix2 k q)) (fun k => x2 (ix2 k q)) := by
  unfold Gen.k1_pay1 dotRow
  rw [shapeCast_self]
  exact product_at _ _ p q

/-- The [1, 1] scale broadcast over the block is its one entry. -/
theorem scale_at (x3 : Vec Ideal S1x1 .f32) (p : Fin 256) (q : Fin 1024) :
    broadcastTo S256x1024 (shapeCast S1x1 x3 shapeCasts_S1x1_S1x1) broadcasts_S1x1_S256x1024 (ix2 p q) = x3 (ix2 0 0) := by
  rw [shapeCast_self]
  exact broadcastTo_apply _ _ _ _ (fun a => by
    match a with
    | ⟨0, _⟩ => rfl
    | ⟨1, _⟩ => rfl)

/-- The [1, 1024] bias row broadcast over the block is its entry of the column. -/
theorem bias_at (x4 : Vec Ideal S1x1024 .f32) (p : Fin 256) (q : Fin 1024) :
    broadcastTo S256x1024 (shapeCast S1x1024 x4 shapeCasts_S1x1024_S1x1024) broadcasts_S1x1024_S256x1024 (ix2 p q) = x4 (ix2 0 q) := by
  rw [shapeCast_self]
  exact broadcastTo_apply _ _ _ _ (fun a => by
    match a with
    | ⟨0, _⟩ => rfl
    | ⟨1, _⟩ => rfl)

/-- The third kernel's stored value at (p, q): the product scaled, the bias added, clamped at zero. -/
theorem pay2_at (x1 : Vec Ideal S2048x1024 .f32) (x2 : Vec Ideal S2048x1024 .i32) (x0 : Vec Ideal S256x2048 .f32)
    (x3 : Vec Ideal S1x1 .f32) (x4 : Vec Ideal S1x1024 .f32) (p : Fin 256) (q : Fin 1024) :
    Gen.k2_pay1 (F := Ideal) x1 x2 x0 x3 x4 (ix2 p q)
      = max (dotRow (fun k => x0 (ix2 p k)) (fun k => x1 (ix2 k q)) (fun k => x2 (ix2 k q)) * x3 (ix2 0 0) + x4 (ix2 0 q)) 0 := by
  have e : Gen.k2_pay1 (F := Ideal) x1 x2 x0 x3 x4 (ix2 p q)
      = max (Gen.k1_pay1 (F := Ideal) x1 x2 x0 (ix2 p q)
          * broadcastTo S256x1024 (shapeCast S1x1 x3 shapeCasts_S1x1_S1x1) broadcasts_S1x1_S256x1024 (ix2 p q)
          + broadcastTo S256x1024 (shapeCast S1x1024 x4 shapeCasts_S1x1024_S1x1024) broadcasts_S1x1024_S256x1024 (ix2 p q))
        (Ideal.ofBits .f32 0x00000000#32) := rfl
  rw [e, pay1_at, scale_at, bias_at, Ideal.ofBits_zero_f32]

end Cert.MaskedChain.Body

end
-- ==== Proof.Region0.lean ====
/-
  The first kernel's result array. Grid point t writes back the 256 × 1024 block of the output whose block
  row and block column are the point's two coordinates; it read the 256 rows of the activations of that block
  row (all 2048 columns) and the 1024 columns of the weight and of the mask of that block column (all 2048
  rows). So what it writes back is that block of ONE whole-array function, the stage of the three arrays as the
  kernel finds them, and the 16 × 2 blocks tile the output: the array ends holding the stage.
  (Stated for any contents `V` of the buffers at the kernel's entry.)
-/
import proofs.«143237_j44470091383360_1_alg».proof.Proof.Gen.KernelIdeal.Frame
import proofs.«143237_j44470091383360_1_alg».proof.Proof.Payload
import Idealize.ShloMosaic.Lib.Pipeline.Value

noncomputable section

namespace Cert.MaskedChain.Region0

open Idealize.ShloMosaic Idealize.ShloMosaic.TcCoe Idealize.ShloMosaic.ValueIdx Idealize.SL.Sem
open Idealize.ShloMosaic.Pipeline (Dat)
open Cert.KernelIdeal Cert.KernelIdeal.Gen Cert.MaskedChain Cert.MaskedChain.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' block row is the output's, the weight's and the mask's
    block column is the output's, their other block index is zero; the output's block indices stay in range. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 1 :=
  (by decide +kernel : ∀ t : Fin grid0.N, _)

/-- Every one of the 16 × 2 output blocks is some point's. -/
theorem idx_onto : ∀ (q0 : Fin 16) (q1 : Fin 2), ∃ t : Fin cfg0.N, win0_3.index t = ![q0.val, q1.val] :=
  (by decide +kernel : ∀ (q0 : Fin 16) (q1 : Fin 2), ∃ t : Fin grid0.N, win0_3.index t = ![q0.val, q1.val])

/-- What point `t` writes back is its block of the stage of the arrays the kernel finds. -/
theorem flushed_eq (c : Dev nD) (t : Fin cfg0.N) :
    (dat0 V c).flushed 3 t
      = ((cfg0.win 3).blk t).view.read (Elt Ideal) (stage (V c main_arg0) (V c main_arg1) (V c main_arg4)) := by
  show (cfg0.win 3).cut (grid0.coords t) ((dat0 V c).after 3 t) = _
  rw [after0_3]
  unfold out0_3
  rw [View.canon_unit_zero hz]
  simp only [View.ld_unit_zero (S := S2048x1024) hz, View.ld_unit_zero (S := S256x2048) hz]
  obtain ⟨e0, e1, e2, e3, e4, e5, -, -⟩ := idx_facts t
  funext j
  obtain ⟨p, q, rfl⟩ : ∃ (p : Fin 256) (q : Fin 1024), j = ix2 p q := ⟨j 0, j 1, eq_ix2 j⟩
  show k0_pay1 (iblk0 V c 1 t) (iblk0 V c 2 t) (iblk0 V c 0 t) (ix2 p q)
    = stage (V c main_arg0) (V c main_arg1) (V c main_arg4) (((cfg0.win 3).blk t).view.emb (ix2 p q))
  rw [pay0_at]
  refine dotRow_congr (fun k => ?_) (fun k => ?_) (fun k => ?_)
  · show V c main_arg0 (((cfg0.win 0).blk t).view.emb (ix2 p k)) = V c main_arg0 _
    refine congrArg _ (funext fun a => Fin.ext ?_)
    match a with
    | ⟨0, _⟩ => show win0_0.index t (0 : Fin 2) * 256 + 1 * p.val = win0_3.index t (0 : Fin 2) * 256 + 1 * p.val; omega
    | ⟨1, _⟩ => show win0_0.index t (1 : Fin 2) * 2048 + 1 * k.val = k.val; omega
  · show V c main_arg1 (((cfg0.win 1).blk t).view.emb (ix2 k q)) = V c main_arg1 _
    refine congrArg _ (funext fun a => Fin.ext ?_)
    match a with
    | ⟨0, _⟩ => show win0_1.index t (0 : Fin 2) * 2048 + 1 * k.val = k.val; omega
    | ⟨1, _⟩ => show win0_1.index t (1 : Fin 2) * 1024 + 1 * q.val = win0_3.index t (1 : Fin 2) * 1024 + 1 * q.val; omega
  · show V c main_arg4 (((cfg0.win 2).blk t).view.emb (ix2 k q)) = V c main_arg4 _
    refine congrArg _ (funext fun a => Fin.ext ?_)
    match a with
    | ⟨0, _⟩ => show win0_2.index t (0 : Fin 2) * 2048 + 1 * k.val = k.val; omega
    | ⟨1, _⟩ => show win0_2.index t (1 : Fin 2) * 1024 + 1 * q.val = win0_3.index t (1 : Fin 2) * 1024 + 1 * q.val; omega

/-- An index of the output is in point `t`'s block iff each coordinate is in the block's range on its axis. -/
theorem mem_blk (t : Fin cfg0.N) (i : S4096x2048.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v2).slice (win0_3.rect t)).set ↔ _
  rw [View.set_slice_whole, Rect.mem_set_unit]
  exact Iff.rfl

/-- Every index of the output is in some point's block: row r is in block row r / 256, column s in block column s / 1024. -/
theorem cover (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := idx_onto ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The output array after the kernel: the stage of the arrays it found. -/
theorem final (c : Dev nD) :
    (dat0 V c).arrAt 3 cfg0.N = stage (V c main_arg0) (V c main_arg1) (V c main_arg4) :=
  (dat0 V c).arrAt_eq_of_cover 3 _ (fun t _ => flushed_eq V c t) cover

end Cert.MaskedChain.Region0

end
-- ==== Proof.Region1.lean ====
/-
  The second kernel's result array: the same tiling as the first kernel's, its activations the first kernel's
  result array. Grid point t writes back the 256 × 1024 block of the output at its block row and block column,
  from the 256 rows of the activations of that block row and the 1024 columns of the weight and of the mask of
  that block column; the 16 × 2 blocks tile the output, which ends holding the stage of the three arrays as the
  kernel finds them. (Stated for any contents `V` of the buffers at the kernel's entry.)
-/
import proofs.«143237_j44470091383360_1_alg».proof.Proof.Gen.KernelIdeal.Frame
import proofs.«143237_j44470091383360_1_alg».proof.Proof.Payload
import Idealize.ShloMosaic.Lib.Pipeline.Value

noncomputable section

namespace Cert.MaskedChain.Region1

open Idealize.ShloMosaic Idealize.ShloMosaic.TcCoe Idealize.ShloMosaic.ValueIdx Idealize.SL.Sem
open Idealize.ShloMosaic.Pipeline (Dat)
open Cert.KernelIdeal Cert.KernelIdeal.Gen Cert.MaskedChain Cert.MaskedChain.Body

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' block row is the output's, the weight's and the mask's
    block column is the output's, their other block index is zero; the output's block indices stay in range. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 15 ∧ win1_3.index t (1 : Fin 2) ≤ 1 :=
  (by decide +kernel : ∀ t : Fin grid1.N, _)

/-- Every one of the 16 × 2 output blocks is some point's. -/
theorem idx_onto : ∀ (q0 : Fin 16) (q1 : Fin 2), ∃ t : Fin cfg1.N, win1_3.index t = ![q0.val, q1.val] :=
  (by decide +kernel : ∀ (q0 : Fin 16) (q1 : Fin 2), ∃ t : Fin grid1.N, win1_3.index t = ![q0.val, q1.val])

/-- What point `t` writes back is its block of the stage of the arrays the kernel finds. -/
theorem flushed_eq (c : Dev nD) (t : Fin cfg1.N) :
    (dat1 V c).flushed 3 t
      = ((cfg1.win 3).blk t).view.read (Elt Ideal) (stage (V c main_v2) (V c main_arg2) (V c main_arg5)) := by
  show (cfg1.win 3).cut (grid1.coords t) ((dat1 V c).after 3 t) = _
  rw [after1_3]
  unfold out1_3
  rw [View.canon_unit_zero hz]
  simp only [View.ld_unit_zero (S := S2048x1024) hz, View.ld_unit_zero (S := S256x2048) hz]
  obtain ⟨e0, e1, e2, e3, e4, e5, -, -⟩ := idx_facts t
  funext j
  obtain ⟨p, q, rfl⟩ : ∃ (p : Fin 256) (q : Fin 1024), j = ix2 p q := ⟨j 0, j 1, eq_ix2 j⟩
  show k1_pay1 (iblk1 V c 1 t) (iblk1 V c 2 t) (iblk1 V c 0 t) (ix2 p q)
    = stage (V c main_v2) (V c main_arg2) (V c main_arg5) (((cfg1.win 3).blk t).view.emb (ix2 p q))
  rw [pay1_at]
  refine dotRow_congr (fun k => ?_) (fun k => ?_) (fun k => ?_)
  · show V c main_v2 (((cfg1.win 0).blk t).view.emb (ix2 p k)) = V c main_v2 _
    refine congrArg _ (funext fun a => Fin.ext ?_)
    match a with
    | ⟨0, _⟩ => show win1_0.index t (0 : Fin 2) * 256 + 1 * p.val = win1_3.index t (0 : Fin 2) * 256 + 1 * p.val; omega
    | ⟨1, _⟩ => show win1_0.index t (1 : Fin 2) * 2048 + 1 * k.val = k.val; omega
  · show V c main_arg2 (((cfg1.win 1).blk t).view.emb (ix2 k q)) = V c main_arg2 _
    refine congrArg _ (funext fun a => Fin.ext ?_)
    match a with
    | ⟨0, _⟩ => show win1_1.index t (0 : Fin 2) * 2048 + 1 * k.val = k.val; omega
    | ⟨1, _⟩ => show win1_1.index t (1 : Fin 2) * 1024 + 1 * q.val = win1_3.index t (1 : Fin 2) * 1024 + 1 * q.val; omega
  · show V c main_arg5 (((cfg1.win 2).blk t).view.emb (ix2 k q)) = V c main_arg5 _
    refine congrArg _ (funext fun a => Fin.ext ?_)
    match a with
    | ⟨0, _⟩ => show win1_2.index t (0 : Fin 2) * 2048 + 1 * k.val = k.val; omega
    | ⟨1, _⟩ => show win1_2.index t (1 : Fin 2) * 1024 + 1 * q.val = win1_3.index t (1 : Fin 2) * 1024 + 1 * q.val; omega

/-- An index of the output is in point `t`'s block iff each coordinate is in the block's range on its axis. -/
theorem mem_blk (t : Fin cfg1.N) (i : S4096x2048.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v3).slice (win1_3.rect t)).set ↔ _
  rw [View.set_slice_whole, Rect.mem_set_unit]
  exact Iff.rfl

/-- Every index of the output is in some point's block: row r is in block row r / 256, column s in block column s / 1024. -/
theorem cover (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨t, ht⟩ := idx_onto ⟨(i 0).val / 256, by omega⟩ ⟨(i 1).val / 1024, by omega⟩
  have q0 : win1_3.index t (0 : Fin 2) = (i 0).val / 256 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- The output array after the kernel: the stage of the arrays it found. -/
theorem final (c : Dev nD) :
    (dat1 V c).arrAt 3 cfg1.N = stage (V c main_v2) (V c main_arg2) (V c main_arg5) :=
  (dat1 V c).arrAt_eq_of_cover 3 _ (fun t _ => flushed_eq V c t) cover

end Cert.MaskedChain.Region1

end
-- ==== Proof.Region2.lean ====
/-
  The third kernel's result array. The tiling is the first two kernels'; beside the three matrix operands each
  grid point reads the one [1, 1] scale and the 1024 bias entries of its block column out of the [1, 2048] bias row.
  What it writes back is its block of ONE whole-array function: the stage of the three matrix arrays, every entry
  times the scale plus the bias entry of its column, clamped at zero (`scaled`). The 16 × 2 blocks tile the
  output, which ends holding that. (Stated for any contents `V` of the buffers at the kernel's entry.)
-/
import proofs.«143237_j44470091383360_1_alg».proof.Proof.Gen.KernelIdeal.Frame
import proofs.«143237_j44470091383360_1_alg».proof.Proof.Payload
import Idealize.ShloMosaic.Lib.Pipeline.Value

noncomputable section

namespace Cert.MaskedChain.Region2

open Idealize.ShloMosaic Idealize.ShloMosaic.TcCoe Idealize.ShloMosaic.ValueIdx Idealize.SL.Sem
open Idealize.ShloMosaic.Pipeline (Dat)
open Cert.KernelIdeal Cert.KernelIdeal.Gen Cert.MaskedChain Cert.MaskedChain.Body

variable (V : (c : Dev nD) → (b : Ref sig .tc) → Buf (Elt Ideal) ((c : Thread nD τ).loc b))

/-- The tail over the kernel's own operand shapes: the scale a [1, 1] array, the bias a [1, 2048] row. -/
def scaled (p : S4096x2048.Idx → EReal) (sc : S1x1.Idx → EReal) (bs : S1x2048.Idx → EReal) : S4096x2048.Idx → EReal :=
  fun i => max (p i * sc (ix2 0 0) + bs (ix2 0 (i 1))) 0

theorem hz : (![0, 0] : Fin 2 → Nat) = fun _ => 0 := funext fun a => by fin_cases a <;> rfl

/-- The printed index maps over the grid: the activations' block row is the output's; the weight's, the mask's
    and the bias row's block column is the output's; every other block index is zero; the output's stay in range. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = win2_5.index t (1 : Fin 2)
    ∧ win2_2.index t (0 : Fin 2) = 0 ∧ win2_2.index t (1 : Fin 2) = win2_5.index t (1 : Fin 2)
    ∧ win2_3.index t (0 : Fin 2) = 0 ∧ win2_3.index t (1 : Fin 2) = 0
    ∧ win2_4.index t (0 : Fin 2) = 0 ∧ win2_4.index t (1 : Fin 2) = win2_5.index t (1 : Fin 2)
    ∧ win2_5.index t (0 : Fin 2) ≤ 15 ∧ win2_5.index t (1 : Fin 2) ≤ 1 :=
  (by decide +kernel : ∀ t : Fin grid2.N, _)

/-- Every one of the 16 × 2 output blocks is some point's. -/
theorem idx_onto : ∀ (q0 : Fin 16) (q1 : Fin 2), ∃ t : Fin cfg2.N, win2_5.index t = ![q0.val, q1.val] :=
  (by decide +kernel : ∀ (q0 : Fin 16) (q1 : Fin 2), ∃ t : Fin grid2.N, win2_5.index t = ![q0.val, q1.val])

/-- What point `t` writes back is its block of `scaled` of the stage of the arrays the kernel finds. -/
theorem flushed_eq (c : Dev nD) (t : Fin cfg2.N) :
    (dat2 V c).flushed 5 t
      = ((cfg2.win 5).blk t).view.read (Elt Ideal)
          (scaled (stage (V c main_v3) (V c main_arg3) (V c main_arg6)) (V c main_v0) (V c main_v1)) := by
  show (cfg2.win 5).cut (grid2.coords t) ((dat2 V c).after 5 t) = _
  rw [after2_5]
  unfold out2_5
  rw [View.canon_unit_zero hz]
  simp only [View.ld_unit_zero (S := S2048x1024) hz, View.ld_unit_zero (S := S256x2048) hz,
    View.ld_unit_zero (S := S1x1) hz, View.ld_unit_zero (S := S1x1024) hz]
  obtain ⟨e0, e1, e2, e3, e4, e5, e6, e7, e8, e9, -, -⟩ := idx_facts t
  funext j
  obtain ⟨p, q, rfl⟩ : ∃ (p : Fin 256) (q : Fin 1024), j = ix2 p q := ⟨j 0, j 1, eq_ix2 j⟩
  show k2_pay1 (iblk2 V c 1 t) (iblk2 V c 2 t) (iblk2 V c 0 t) (iblk2 V c 3 t) (iblk2 V c 4 t) (ix2 p q)
    = scaled (stage (V c main_v3) (V c main_arg3) (V c main_arg6)) (V c main_v0) (V c main_v1)
        (((cfg2.win 5).blk t).view.emb (ix2 p q))
  rw [pay2_at]
  unfold scaled
  have hs : iblk2 V c 3 t (ix2 0 0) = V c main_v0 (ix2 0 0) := by
    show V c main_v0 (((cfg2.win 3).blk t).view.emb (ix2 0 0)) = V c main_v0 _
    refine congrArg _ (funext fun a => Fin.ext ?_)
    match a with
    | ⟨0, _⟩ => show win2_3.index t (0 : Fin 2) * 1 + 1 * 0 = 0; omega
    | ⟨1, _⟩ => show win2_3.index t (1 : Fin 2) * 1 + 1 * 0 = 0; omega
  have hb : iblk2 V c 4 t (ix2 0 q) = V c main_v1 (ix2 0 ((((cfg2.win 5).blk t).view.emb (ix2 p q)) 1)) := by
    show V c main_v1 (((cfg2.win 4).blk t).view.emb (ix2 0 q)) = V c main_v1 _
    refine congrArg _ (funext fun a => Fin.ext ?_)
    match a with
    | ⟨0, _⟩ => show win2_4.index t (0 : Fin 2) * 1 + 1 * 0 = 0; omega
    | ⟨1, _⟩ => show win2_4.index t (1 : Fin 2) * 1024 + 1 * q.val = win2_5.index t (1 : Fin 2) * 1024 + 1 * q.val; omega
  rw [hs, hb]
  refine congrArg (fun z => max (z * _ + _) 0) ?_
  refine dotRow_congr (fun k => ?_) (fun k => ?_) (fun k => ?_)
  · show V c main_v3 (((cfg2.win 0).blk t).view.emb (ix2 p k)) = V c main_v3 _
    refine congrArg _ (funext fun a => Fin.ext ?_)
    match a with
    | ⟨0, _⟩ => show win2_0.index t (0 : Fin 2) * 256 + 1 * p.val = win2_5.index t (0 : Fin 2) * 256 + 1 * p.val; omega
    | ⟨1, _⟩ => show win2_0.index t (1 : Fin 2) * 2048 + 1 * k.val = k.val; omega
  · show V c main_arg3 (((cfg2.win 1).blk t).view.emb (ix2 k q)) = V c main_arg3 _
    refine congrArg _ (funext fun a => Fin.ext ?_)
    match a with
    | ⟨0, _⟩ => show win2_1.index t (0 : Fin 2) * 2048 + 1 * k.val = k.val; omega
    | ⟨1, _⟩ => show win2_1.index t (1 : Fin 2) * 1024 + 1 * q.val = win2_5.index t (1 : Fin 2) * 1024 + 1 * q.val; omega
  · show V c main_arg6 (((cfg2.win 2).blk t).view.emb (ix2 k q)) = V c main_arg6 _
    refine congrArg _ (funext fun a => Fin.ext ?_)
    match a with
    | ⟨0, _⟩ => show win2_2.index t (0 : Fin 2) * 2048 + 1 * k.val = k.val; omega
    | ⟨1, _⟩ => show win2_2.index t (1 : Fin 2) * 1024 + 1 * q.val = win2_5.index t (1 : Fin 2) * 1024 + 1 * q.val; omega

/-- An index of the output is in point `t`'s block iff each coordinate is in the block's range on its axis. -/
theorem mem_blk (t : Fin cfg2.N) (i : S4096x2048.Idx) :
    i ∈ ((cfg2.win 5).blk t).view.set ↔ ∀ a : Fin 2, win2_5.index t a * S256x1024.size a ≤ (i a).val
      ∧ (i a).val < win2_5.index t a * S256x1024.size a + S256x1024.size a := by
  show i ∈ ((View.whole main_v4).slice (win2_5.rect t)).set ↔ _
  rw [View.set_slice_whole, Rect.mem_set_unit]
  exact Iff.rfl

/-- Every index of the output is in some point's block: row r is in block row r / 256, column s in block column s / 1024. -/
theorem cover (i : S4096x2048.Idx) :
    ∃ t : Fin cfg2.N, (cfg2.win 5).flush t = true ∧ i ∈ ((cfg2.win 5).blk t).view.set := by
  have hi0 : (i 0).val < 4096 := (i 0).isLt
  have hi1 : (i 1).val < 2048 := (i 1).isLt
  obtain ⟨t, ht⟩ := idx_onto ⟨(i 0).val / 256, by omega⟩ ⟨(i 1).val / 1024, by omega⟩
  have q0 : win2_5.index t (0 : Fin 2) = (i 0).val / 256 := congrFun ht 0
  have q1 : win2_5.index t (1 : Fin 2) = (i 1).val / 1024 := congrFun ht 1
  refine ⟨t, flush2_5 t, ?_⟩
  rw [mem_blk]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 1024 ≤ (i 1).val ∧ (i 1).val < win2_5.index t (1 : Fin 2) * 1024 + 1024; omega

/-- The output array after the kernel: `scaled` of the stage of the arrays it found. -/
theorem final (c : Dev nD) :
    (dat2 V c).arrAt 5 cfg2.N
      = scaled (stage (V c main_v3) (V c main_arg3) (V c main_arg6)) (V c main_v0) (V c main_v1) :=
  (dat2 V c).arrAt_eq_of_cover 5 _ (fun t _ => flushed_eq V c t) cover

end Cert.MaskedChain.Region2

end
-- ==== Proof.Fold.lean ====
/-
  The result buffer after the three kernels, as the chain of the nine arguments. The buffer contents are folded
  through the program: the two reshapes of the scale and of the bias, then each kernel's arrays at what its
  write-backs leave and every other buffer as it was. Read back through that fold, each kernel finds its
  weight and its mask as launched (nothing writes an argument), the second and third find as activations the
  array the kernel before them wrote, and the third finds the scale and the bias reshaped to [1, 1] and [1, 2048].
  With each kernel's result array (one stage, or a stage and the tail) this gives the chain.
-/
import proofs.«143237_j44470091383360_1_alg».proof.Proof.Gen.KernelIdeal.Frame
import proofs.«143237_j44470091383360_1_alg».proof.Proof.Region0
import proofs.«143237_j44470091383360_1_alg».proof.Proof.Region1
import proofs.«143237_j44470091383360_1_alg».proof.Proof.Region2
import Idealize.ShloMosaic.PureOps.Ideal
import Idealize.ShloMosaic.Lib.StableHlo.Run
import Idealize.ShloMosaic.Lib.Pipeline.Value

noncomputable section

namespace Cert.MaskedChain.Fold

open Idealize.ShloMosaic Idealize.ShloMosaic.TcCoe Idealize.ShloMosaic.ValueIdx Idealize.SL.Sem Idealize.ShloMosaic.StableHlo
open Cert.KernelIdeal Cert.KernelIdeal.Gen Cert.MaskedChain

variable (m : (ℓ : Loc nD τ sig) → Buf (Elt Ideal) ℓ) (ρ : Dev nD → PrngReg)

/-! ## After the two reshapes: the arguments as launched, the scale and the bias reshaped -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results

/-- The scale as the third kernel's operand: the [1] argument reshaped to [1, 1]. -/
theorem W1_scale (c : Dev nD) :
    (W1 m ρ c (Proc.devRef .tc main_v0) : S1x1.Idx → EReal) = shapeCast S1x1 (m ((c : Thread nD τ).loc main_arg7)) shapeCasts_S1_S1x1 := by
  show StableHlo.after hostOps0 (W0 m ρ c) (Proc.devRef .tc main_v0) = _
  after_results
  rfl

/-- The bias as the third kernel's operand: the [2048] argument reshaped to [1, 2048]. -/
theorem W1_bias (c : Dev nD) :
    (W1 m ρ c (Proc.devRef .tc main_v1) : S1x2048.Idx → EReal) = shapeCast S1x2048 (m ((c : Thread nD τ).loc main_arg8)) shapeCasts_S2048_S1x2048 := by
  show StableHlo.after hostOps0 (W0 m ρ c) (Proc.devRef .tc main_v1) = _
  after_results
  rfl

/-! ## The tail over the reshaped scale and bias is the tail over the arguments -/

theorem scaled_reshape (p : S4096x2048.Idx → EReal) (sc : S1.Idx → EReal) (bs : S2048.Idx → EReal) :
    Region2.scaled p (shapeCast S1x1 sc shapeCasts_S1_S1x1) (shapeCast S1x2048 bs shapeCasts_S2048_S1x2048) = tail p sc bs := by
  funext (i : S4096x2048.Idx)
  unfold Region2.scaled tail
  rw [shapeCast_apply sc shapeCasts_S1_S1x1 (ix2 0 0) (ix1 0) (by rw [Shape.rowMajor_val_one, Shape.rowMajor_val_two]; rfl),
    shapeCast_apply bs shapeCasts_S2048_S1x2048 (ix2 0 (i 1)) (ix1 (i 1)) (by
      rw [Shape.rowMajor_val_one, Shape.rowMajor_val_two]
      show (i 1).val = 0 * 2048 + (i 1).val
      omega)]

/-! ## Each kernel's operands, read back through the fold -/

theorem stage0 (c : Dev nD) :
    (W2 m ρ c (Proc.devRef .tc main_v2) : S4096x2048.Idx → EReal)
      = stage (m ((c : Thread nD τ).loc main_arg0)) (m ((c : Thread nD τ).loc main_arg1)) (m ((c : Thread nD τ).loc main_arg4)) := by
  have h := (W2_arr m ρ c 3).trans (Region0.final (V1 m ρ) c)
  rw [show V1 m ρ c main_arg0 = m ((c : Thread nD τ).loc main_arg0) from W1_arg0 m ρ c,
    show V1 m ρ c main_arg1 = m ((c : Thread nD τ).loc main_arg1) from W1_arg1 m ρ c,
    show V1 m ρ c main_arg4 = m ((c : Thread nD τ).loc main_arg4) from W1_arg4 m ρ c] at h
  exact h

theorem stage1 (c : Dev nD) :
    (W3 m ρ c (Proc.devRef .tc main_v3) : S4096x2048.Idx → EReal)
      = stage (stage (m ((c : Thread nD τ).loc main_arg0)) (m ((c : Thread nD τ).loc main_arg1)) (m ((c : Thread nD τ).loc main_arg4))) (m ((c : Thread nD τ).loc main_arg2)) (m ((c : Thread nD τ).loc main_arg5)) := by
  have h := (W3_arr m ρ c 3).trans (Region1.final (V2 m ρ) c)
  rw [show V2 m ρ c main_v2 = stage (m ((c : Thread nD τ).loc main_arg0)) (m ((c : Thread nD τ).loc main_arg1)) (m ((c : Thread nD τ).loc main_arg4)) from stage0 m ρ c,
    show V2 m ρ c main_arg2 = m ((c : Thread nD τ).loc main_arg2) from (W2_of_ne m ρ c main_arg2 (by decide)).trans (W1_arg2 m ρ c),
    show V2 m ρ c main_arg5 = m ((c : Thread nD τ).loc main_arg5) from (W2_of_ne m ρ c main_arg5 (by decide)).trans (W1_arg5 m ρ c)] at h
  exact h

/-- THE RESULT BUFFER after the three kernels is the chain of the nine arguments. -/
theorem result (c : Dev nD) :
    (W4 m ρ c (Proc.devRef .tc main_v4) : S4096x2048.Idx → EReal)
      = chain (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) := by
  have h := (W4_arr m ρ c 5).trans (Region2.final (V3 m ρ) c)
  rw [show V3 m ρ c main_v3 = stage (stage (m ((c : Thread nD τ).loc main_arg0)) (m ((c : Thread nD τ).loc main_arg1)) (m ((c : Thread nD τ).loc main_arg4))) (m ((c : Thread nD τ).loc main_arg2)) (m ((c : Thread nD τ).loc main_arg5)) from stage1 m ρ c,
    show V3 m ρ c main_arg3 = m ((c : Thread nD τ).loc main_arg3) from
      (W3_of_ne m ρ c main_arg3 (by decide)).trans ((W2_of_ne m ρ c main_arg3 (by decide)).trans (W1_arg3 m ρ c)),
    show V3 m ρ c main_arg6 = m ((c : Thread nD τ).loc main_arg6) from
      (W3_of_ne m ρ c main_arg6 (by decide)).trans ((W2_of_ne m ρ c main_arg6 (by decide)).trans (W1_arg6 m ρ c)),
    show V3 m ρ c main_v0 = shapeCast S1x1 (m ((c : Thread nD τ).loc main_arg7)) shapeCasts_S1_S1x1 from
      (W3_of_ne m ρ c main_v0 (by decide)).trans ((W2_of_ne m ρ c main_v0 (by decide)).trans (W1_scale m ρ c)),
    show V3 m ρ c main_v1 = shapeCast S1x2048 (m ((c : Thread nD τ).loc main_arg8)) shapeCasts_S2048_S1x2048 from
      (W3_of_ne m ρ c main_v1 (by decide)).trans ((W2_of_ne m ρ c main_v1 (by decide)).trans (W1_bias m ρ c)),
    scaled_reshape] at h
  exact h

end Cert.MaskedChain.Fold

end
-- ==== Proof.RefChain.lean ====
/-
  The reference, read index by index, is the chain: each of its three `dot_general`s of the running activations
  with a weight times its converted mask is one stage, and its scale · product + bias clamped at zero is the tail
  (the scale is the left factor there and the right one in the tail: the product commutes).
-/
import proofs.«143237_j44470091383360_1_alg».proof.Proof.Gen.ReferenceIdeal.Read
import proofs.«143237_j44470091383360_1_alg».proof.Proof.Spec

noncomputable section

namespace Cert.MaskedChain.Ref

open Idealize.ShloMosaic Idealize.ShloMosaic.ValueIdx
open Cert.ReferenceIdeal Cert.ReferenceIdeal.Read Cert.MaskedChain

/-- The host's product of the activations with a weight times its converted mask is one stage. -/
theorem stage_ref (a : SX.Idx → EReal) (w : SK.Idx → EReal) (mk : SK.Idx → BitVec 32) :
    val_main_v2 (F := Ideal) a w mk = stage a w mk := by
  funext (i : SX.Idx)
  rw [val_main_v2_apply]
  unfold stage dotRow
  refine Finset.sum_congr rfl fun k _ => ?_
  have el : lidx_main_v2 i k = ix2 (i 0) k := funext fun d => Fin.ext (by
    match d with
    | ⟨0, _⟩ => rfl
    | ⟨1, _⟩ => rfl)
  have er : ridx_main_v2 i k = ix2 k (i 1) := funext fun d => Fin.ext (by
    match d with
    | ⟨0, _⟩ => rfl
    | ⟨1, _⟩ => rfl)
  rw [el, er]
  rfl

/-- The reference's result is the chain of its nine arguments. -/
theorem result_ref (x0 : SX.Idx → EReal) (x1 x2 x3 : SK.Idx → EReal) (x4 x5 x6 : SK.Idx → BitVec 32)
    (x7 : SS.Idx → EReal) (x8 : SB.Idx → EReal) :
    val_main_v15 (F := Ideal) x0 x1 x2 x3 x4 x5 x6 x7 x8 = chain x0 x1 x2 x3 x4 x5 x6 x7 x8 := by
  funext (i : SX.Idx)
  have h8 : val_main_v8 (F := Ideal) x0 x1 x2 x3 x4 x5 x6
      = val_main_v2 (F := Ideal) (val_main_v2 (F := Ideal) (val_main_v2 (F := Ideal) x0 x1 x4) x2 x5) x3 x6 := rfl
  have e9 : idx_main_v9 (idx_main_v10 i) = ix1 0 := funext fun d => Fin.ext (by
    match d with
    | ⟨0, _⟩ => rfl)
  have e12 : idx_main_v12 (idx_main_v13 i) = ix1 (i 1) := funext fun d => Fin.ext (by
    match d with
    | ⟨0, _⟩ => rfl)
  rw [val_main_v15_apply, val_main_v14_apply, val_main_v11_apply, val_main_v10_apply, val_main_v9_apply,
    val_main_v13_apply, val_main_v12_apply, val_main_call0_v0_apply, val_main_call0_cst_apply, h8,
    stage_ref, stage_ref, stage_ref, e9, e12]
  unfold chain tail
  rw [Ideal.maximumf_def, Ideal.addf_def, Ideal.mulf_def, Ideal.ofBits_def, Ideal.ofBits_zero_f32, mul_comm]
  rfl

end Cert.MaskedChain.Ref

end
-- ==== Proof.lean ====
/-
  The certificate. Kernel and reference compute one function of their nine arguments on the extended reals:
  three masked matrix products one after the other — entry (r, c) of a stage is the sum over k of
  a[r, k] · (w[k, c] · mask[k, c]) —, then every entry times the scale, plus the bias of its column, clamped
  at zero. The kernel does each product in 16 × 2 blocks of 256 × 1024 entries, each block from the whole
  contraction axis, so no sum is regrouped; the only law used between the two sides is that a product of two
  extended reals commutes (the reference scales from the left, the kernel from the right). No input needs to
  be finite for that.

  Spec       the stage, the tail, the chain
  RefChain   the reference's result is the chain
  Payload    one grid point's stored block, entry by entry
  Region0-2  each kernel's result array is the stage (and the tail) of the arrays it finds
  Run        the three kernels' run with the result buffer read beside the arguments
  Fold       the result buffer after the three kernels is the chain of the arguments
-/
import proofs.«143237_j44470091383360_1_alg».proof.Defs
import proofs.«143237_j44470091383360_1_alg».proof.Proof.Gen.Kernel
import proofs.«143237_j44470091383360_1_alg».proof.Proof.Gen.Kernel.Skeleton
import proofs.«143237_j44470091383360_1_alg».proof.Proof.Gen.Kernel.Launch
import proofs.«143237_j44470091383360_1_alg».proof.Proof.Gen.Kernel.Points
import proofs.«143237_j44470091383360_1_alg».proof.Proof.Gen.Kernel.Frame
import proofs.«143237_j44470091383360_1_alg».proof.Proof.Gen.KernelIdeal
import proofs.«143237_j44470091383360_1_alg».proof.Proof.Gen.KernelIdeal.Skeleton
import proofs.«143237_j44470091383360_1_alg».proof.Proof.Gen.KernelIdeal.Launch
import proofs.«143237_j44470091383360_1_alg».proof.Proof.Gen.KernelIdeal.Points
import proofs.«143237_j44470091383360_1_alg».proof.Proof.Gen.KernelIdeal.Frame
import proofs.«143237_j44470091383360_1_alg».proof.Proof.Gen.ReferenceIdeal
import proofs.«143237_j44470091383360_1_alg».proof.Proof.Gen.ReferenceIdeal.Run
import proofs.«143237_j44470091383360_1_alg».proof.Proof.Gen.ReferenceIdeal.Read
import proofs.«143237_j44470091383360_1_alg».proof.Proof.Gen.Pre_finite_inputs
import proofs.«143237_j44470091383360_1_alg».proof.Proof.Run
import proofs.«143237_j44470091383360_1_alg».proof.Proof.Fold
import proofs.«143237_j44470091383360_1_alg».proof.Proof.RefChain
import Idealize.ShloMosaic.Adequacy
import Idealize.ShloMosaic.Init

noncomputable section

namespace Cert.Proof

open Idealize.ShloMosaic Idealize.ShloMosaic.TcCoe Idealize.SL.Sem

/-- The idealized kernel's run: the result buffer ends at the chain of the arguments, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
          = Cert.MaskedChain.chain (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun _ h c => ⟨(h c).1.trans (Cert.MaskedChain.Fold.result m ρ c), (h c).2⟩)
    (Cert.KernelIdeal.Named.run_named (F := Ideal) m ρ)

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading: nothing to preserve. -/
theorem preserves : Cert.preserves_Kernel_KernelIdeal := trivial

/-- From memories that agree on the arguments both programs end with the chain of those arguments in their result. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v15_eq, Cert.MaskedChain.Ref.result_ref, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
